-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S1600000x48 : Shape := ⟨2, ![1600000, 48]⟩
abbrev S_ : Shape := ⟨0, ![]⟩

class Facts : Prop where
  bcast_S_S1600000x48 : S_.BroadcastsInDim S1600000x48 (![] : Fin 0 → Fin S1600000x48.rank)
  reducesTo_S1600000x48_S_d0_1 : S1600000x48.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : IVec S1600000 32) (main_arg1 : IVec S1600000 32) (main_arg2 : FVec F S1600000x48 .f32) : IVec S_ 1 :=
  let main_v0 : FVec F S1600000x48 .f32 := Host.absf main_arg2
  let main_cst : FVec F S_ .f32 := constant S_ .f32 0x7F800000#32
  let main_v1 : FVec F S1600000x48 .f32 := broadcastInDim S1600000x48 ![] bcast_S_S1600000x48 main_cst
  let main_v2 : IVec S1600000x48 1 := cmpf .olt main_v0 main_v1
  let main_c : IVec S_ 1 := constantI S_ 1 1#1
  let main_v3 : IVec S_ 1 := (fun x v => Host.reduce IntOp.andi x v reducesTo_S1600000x48_S_d0_1 h_S_) main_v2 main_c
  let main_c_0 : IVec S_ 32 := constantI S_ 32 0#32
  let main_v4 : IVec S1600000 32 := broadcastInDim S1600000 ![] bcast_S_S1600000 main_c_0
  let main_v5 : IVec S1600000 1 := cmpi .sge main_arg1 main_v4
  let main_c_1 : IVec S_ 1 := constantI S_ 1 1#1
  let main_v6 : IVec S_ 1 := (fun x v => Host.reduce IntOp.andi x v reducesTo_S1600000_S_d0 h_S_) main_v5 main_c_1
  let main_v7 : IVec S_ 1 := andi main_v3 main_v6
  let main_c_2 : IVec S_ 32 := constantI S_ 32 100000#32
  let main_v8 : IVec S1600000 32 := broadcastInDim S1600000 ![] bcast_S_S1600000 main_c_2
  let main_v9 : IVec S1600000 1 := cmpi .slt main_arg1 main_v8
  let main_c_3 : IVec S_ 1 := constantI S_ 1 1#1
  let main_v10 : IVec S_ 1 := (fun x v => Host.reduce IntOp.andi x v reducesTo_S1600000_S_d0 h_S_) main_v9 main_c_3
  let main_v11 : IVec S_ 1 := andi main_v7 main_v10
  main_v11
-- ==== Kernel.lean ====
abbrev S1600000 : Shape := ⟨1, ![1600000]⟩
abbrev S1600000x48 : Shape := ⟨2, ![1600000, 48]⟩
abbrev S8x384 : Shape := ⟨2, ![8, 384]⟩
abbrev S_ : Shape := ⟨0, ![]⟩
abbrev S100000 : Shape := ⟨1, ![100000]⟩
abbrev S1600000x1 : Shape := ⟨2, ![1600000, 1]⟩
abbrev S200000x384 : Shape := ⟨2, ![200000, 384]⟩
abbrev S200000x8 : Shape := ⟨2, ![200000, 8]⟩
abbrev S5000x384 : Shape := ⟨2, ![5000, 384]⟩
abbrev S5000x8 : Shape := ⟨2, ![5000, 8]⟩

abbrev nBuf : Space → Nat
  | .hbm => 42
  | .vmem => 7
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000x48, .f32⟩
  | .hbm, ⟨3, _⟩ => ⟨S8x384, .f32⟩
  | .hbm, ⟨4, _⟩ => ⟨S_, .i32⟩
  | .hbm, ⟨5, _⟩ => ⟨S100000, .i32⟩
  | .hbm, ⟨6, _⟩ => ⟨S_, .i32⟩
  | .hbm, ⟨7, _⟩ => ⟨S_, .i32⟩
  | .hbm, ⟨8, _⟩ => ⟨S1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S_, .i32⟩
  | .hbm, ⟨19, _⟩ => ⟨S1600000, .i32⟩
  | .hbm, ⟨20, _⟩ => ⟨S100000, .i32⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .i32⟩
  | .hbm, ⟨33, _⟩ => ⟨S1600000, .f32⟩
  | .hbm, ⟨34, _⟩ => ⟨S_, .f32⟩
  | .hbm, ⟨35, _⟩ => ⟨S1600000, .f32⟩
  | .hbm, ⟨36, _⟩ => ⟨S1600000, .f32⟩
  | .hbm, ⟨37, _⟩ => ⟨S1600000, .f32⟩
  | .hbm, ⟨38, _⟩ => ⟨S200000x384, .f32⟩
  | .hbm, ⟨39, _⟩ => ⟨S200000x8, .f32⟩
  | .hbm, ⟨40, _⟩ => ⟨S200000x384, .f32⟩
  | .hbm, ⟨41, _⟩ => ⟨S1600000x48, .f32⟩
  | .local _ .vmem, ⟨0, _⟩ => ⟨S5000x384, .f32⟩
  | .local _ .vmem, ⟨1, _⟩ => ⟨S5000x384, .f32⟩
  | .local _ .vmem, ⟨2, _⟩ => ⟨S5000x8, .f32⟩
  | .local _ .vmem, ⟨3, _⟩ => ⟨S5000x8, .f32⟩
  | .local _ .vmem, ⟨4, _⟩ => ⟨S8x384, .f32⟩
  | .local _ .vmem, ⟨5, _⟩ => ⟨S5000x384, .f32⟩
  | .local _ .vmem, ⟨6, _⟩ => ⟨S5000x384, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_v13 : Ref sig .tc := ⟨.hbm, 26, rfl⟩
abbrev main_c_6 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000x48_S200000x384 : S1600000x48.ShapeCasts S200000x384
  shapeCasts_S1600000_S200000x8 : S1600000.ShapeCasts S200000x8
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  inb_S8x384_S8x384_0_0 : ∀ a, (![0, 0] : Fin 2 → Nat) a + S8x384.size a ≤ S8x384.size a
  h_S8x384 : 0 < S8x384.numel
  inb_S5000x384_S5000x384_0_0 : ∀ a, (![0, 0] : Fin 2 → Nat) a + S5000x384.size a ≤ S5000x384.size a
  h_S5000x384 : 0 < S5000x384.numel
  shapeCasts_S5000x384_S5000x384 : S5000x384.ShapeCasts S5000x384
  shapeCasts_S200000x384_S1600000x48 : S200000x384.ShapeCasts S1600000x48
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x8_S8x384_S5000x384_1_0_0_1_n_n_wf : DotDims.WF S5000x8 S8x384 S5000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S200000x384.size a
  hwx0_0 : ∀ i : grid0.Coords, EltTy.bits .f32 = 32 ∨ (Rect.block (s := S200000x384) S5000x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x8.size a ≤ S200000x8.size a
  hwx0_1 : ∀ i : grid0.Coords, EltTy.bits .f32 = 32 ∨ (Rect.block (s := S200000x8) S5000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x384.size a ≤ S8x384.size a
  hwx0_2 : ∀ i : grid0.Coords, EltTy.bits .f32 = 32 ∨ (Rect.block (s := S8x384) S8x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x384.size a ≤ S200000x384.size a
  hwx0_3 : ∀ i : grid0.Coords, EltTy.bits .f32 = 32 ∨ (Rect.block (s := S200000x384) S5000x384.size (cc0_transform_3 i) (hinb0_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x8_S8x384_S5000x384_1_0_0_1_n_n : DotDims S5000x8 S8x384 S5000x384 where
  lhsContracting := [1]
  rhsContracting := [0]
  lhsNonContracting := [0]
  rhsNonContracting := [1]
  lhsBatch := []
  rhsBatch := []
  wf := dot_S5000x8_S8x384_S5000x384_1_0_0_1_n_n_wf

abbrev win0_0 : Pipeline.Window sig grid0 :=
  Pipeline.Window.ofSpec (Memref.whole main_v23) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_cst) S8x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S5000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1600000 : Shape := ⟨1, ![1600000]⟩
abbrev S1600000x48 : Shape := ⟨2, ![1600000, 48]⟩
abbrev S_ : Shape := ⟨0, ![]⟩
abbrev S100000 : Shape := ⟨1, ![100000]⟩
abbrev S1600000x1 : Shape := ⟨2, ![1600000, 1]⟩

abbrev nBuf : Space → Nat
  | .hbm => 36
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000x48, .f32⟩
  | .hbm, ⟨3, _⟩ => ⟨S_, .i32⟩
  | .hbm, ⟨4, _⟩ => ⟨S100000, .i32⟩
  | .hbm, ⟨5, _⟩ => ⟨S_, .i32⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S_, .i32⟩
  | .hbm, ⟨18, _⟩ => ⟨S1600000, .i32⟩
  | .hbm, ⟨19, _⟩ => ⟨S100000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .i32⟩
  | .hbm, ⟨29, _⟩ => ⟨S1600000, .f32⟩
  | .hbm, ⟨30, _⟩ => ⟨S_, .f32⟩
  | .hbm, ⟨31, _⟩ => ⟨S1600000, .f32⟩
  | .hbm, ⟨32, _⟩ => ⟨S1600000, .f32⟩
  | .hbm, ⟨33, _⟩ => ⟨S1600000x1, .f32⟩
  | .hbm, ⟨34, _⟩ => ⟨S1600000x48, .f32⟩
  | .hbm, ⟨35, _⟩ => ⟨S1600000x48, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_c_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x48_0_1 : S1600000x1.BroadcastsInDim S1600000x48 (![0, 1] : Fin 2 → Fin S1600000x48.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf

class Facts : Prop extends Facts₀ where

variable [Facts]
-- ==== Proof.Spec.lean ====
/-
  The product array of the kernel's region as one function of its two input arrays.

  The region reads a message array `A0 : [200000, 384]` (eight edges of 48 features per row) and a weight array
  `A1 : [200000, 8]` (the eight edges' weights per row) and produces `A0 (r, l) · A1 (r, l / 48)`: column `l` belongs to the
  edge numbered `l / 48` within its row.
-/
import proofs.«109882_j89386859364991_2_alg».proof.KernelIdeal
import Idealize.ShloMosaic.PureOps.Ideal
import Idealize.ShloMosaic.Lib.ValueIdx

noncomputable section

namespace Cert.KernelIdeal.KValue

open Cert.KernelIdeal Idealize.ShloMosaic Idealize.ShloMosaic.ValueIdx

/-- The weight an output entry is multiplied by: same row, the column's group of 48. -/
def grp (i : S200000x384.Idx) : S200000x8.Idx :=
  ix2 (⟨(i 0).val, (i 0).isLt⟩ : Fin 200000) (⟨(i 1).val / 48, by have h : (i 1).val < 384 := (i 1).isLt; omega⟩ : Fin 8)

/-- The output array as one function of the message array `A0` and the weight array `A1`. -/
def G3 (A0 : S200000x384.Idx → EReal) (A1 : S200000x8.Idx → EReal) : S200000x384.Idx → EReal :=
  fun i => A0 i * A1 (grp i)

end Cert.KernelIdeal.KValue

end
-- ==== Proof.HostSide.lean ====
/-
  The three arrays the kernel's region reads, as the host operations before it leave them.

  * the message array regrouped: `[1600000, 48]` read as `[200000, 384]` (eight consecutive edges per row);
  * the weight vector regrouped: `[1600000]` read as `[200000, 8]`, where the weight of edge `e` is
    `1 / max(count, 1)[target e]`, `count` the histogram of the targets over 100000 bins (a negative target clipped to
    bin 0 for the histogram, wrapped once by 100000 for the lookup, as jnp's indexing does);
  * the constant 0/1 table `[8, 384]`, given by its words.
-/
import proofs.«109882_j89386859364991_2_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

attribute [local instance] Cert.KernelIdeal.Gen.facts

variable {F : FTy → Type} [FloatOps F]

/-- A target clipped below at 0 (the histogram's index). -/
def clip0 (tgt : IVec S1600000 32) : IVec S1600000 32 :=
  maxsi (broadcastInDim S1600000 ![] bcast_S_S1600000 (id (constantI S_ 32 0#32))) tgt

/-- An index word as jnp's indexing reads it: a negative word is wrapped once by the table's length. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- The histogram of the targets: ones scattered by integer addition into 100000 zero bins. -/
def counts (tgt : IVec S1600000 32) : IVec S100000 32 :=
  Host.scatter scatter_S100000_S1600000x1_S1600000_n_0_0_1 IntOp.addi
    (broadcastInDim S100000 ![] bcast_S_S100000 (constantI S_ 32 0#32))
    (broadcastInDim S1600000x1 ![0] bcast_S1600000_S1600000x1_0 (wrap (clip0 tgt)))
    (broadcastInDim S1600000 ![] bcast_S_S1600000 (constantI S_ 32 1#32))

/-- The kernel program's weight of each edge: one over the count of its target's bin, the counts raised to at least 1. -/
def weights (tgt : IVec S1600000 32) : FVec F S1600000 .f32 :=
  id (Host.divf (broadcastInDim S1600000 ![] bcast_S_S1600000 (constant S_ .f32 0x3F800000#32))
    (sitofp .f32 (Host.gather gather_S100000_S1600000x1_S1600000_n_0_n_n_0_1_1
      (maxsi (counts tgt) (broadcastInDim S100000 ![] bcast_S_S100000 (constantI S_ 32 1#32)))
      (broadcastInDim S1600000x1 ![0] bcast_S1600000_S1600000x1_0 (wrap tgt)))))

variable (m : (ℓ : Loc nD τ sig) → Buf (Elt F) ℓ)

set_option maxHeartbeats 4000000 in
/-- The weight window's array: the weights regrouped eight to a row. -/
theorem V_weights (c : Dev nD) :
    (V m c main_v24 : S200000x8.Idx → Elt F .f32)
      = shapeCast S200000x8 (weights (F := F) (m ((c.tc : Thread nD τ).loc main_arg1))) shapeCasts_S1600000_S200000x8 := by
  show StableHlo.after (List.flatten [hostOps0, hostOps0_1, hostOps0_2]) (fun b => m (c, b)) (Proc.devRef .tc main_v24) = _
  simp only [List.flatten_cons, List.flatten_nil, List.append_nil]
  delta hostOps0 hostOps0_1 hostOps0_2
  simp only [List.cons_append, List.nil_append]
  after_results_simp
  rfl

set_option maxHeartbeats 4000000 in
/-- The message window's array: the messages regrouped eight edges to a row. -/
theorem V_messages (c : Dev nD) :
    (V m c main_v23 : S200000x384.Idx → Elt F .f32)
      = shapeCast S200000x384 (m ((c.tc : Thread nD τ).loc main_arg2)) shapeCasts_S1600000x48_S200000x384 := by
  show StableHlo.after (List.flatten [hostOps0, hostOps0_1, hostOps0_2]) (fun b => m (c, b)) (Proc.devRef .tc main_v23) = _
  simp only [List.flatten_cons, List.flatten_nil, List.append_nil]
  delta hostOps0 hostOps0_1 hostOps0_2
  simp only [List.cons_append, List.nil_append]
  after_results_simp
  rfl

set_option maxHeartbeats 4000000 in
/-- The table window's array, word by word. -/
theorem V_table (c : Dev nD) :
    (V m c main_cst : S8x384.Idx → Elt F .f32) = fun i => FloatOps.ofBits .f32 (lit0 (S8x384.rowMajor i)) := by
  show StableHlo.after (List.flatten [hostOps0, hostOps0_1, hostOps0_2]) (fun b => m (c, b)) (Proc.devRef .tc main_cst) = _
  simp only [List.flatten_cons, List.flatten_nil, List.append_nil]
  delta hostOps0 hostOps0_1 hostOps0_2
  simp only [List.cons_append, List.nil_append]
  after_results_simp
  rfl

end Cert.KernelIdeal.HostSide

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.Expand.lean ====
import proofs.«109882_j89386859364991_2_alg».proof.KernelIdeal
import proofs.«109882_j89386859364991_2_alg».proof.Proof.Gen.KernelIdeal
import proofs.«109882_j89386859364991_2_alg».proof.Proof.Gen.KernelIdeal.Skeleton
import proofs.«109882_j89386859364991_2_alg».proof.Proof.LibDot
import Idealize.ShloMosaic.Lib.Pipeline.Value
import Idealize.ShloMosaic.Lib.ValueLayout
import Idealize.ShloMosaic.Lib.IdealHost
import Idealize.ShloMosaic.PureOps.Ideal.Laws
noncomputable section
open scoped BigOperators
namespace Cert.KernelIdeal.Expand
open Idealize.ShloMosaic Idealize.ShloMosaic.ValueIdx Cert.KernelIdeal Cert.KernelIdeal.Gen
attribute [local instance] Cert.KernelIdeal.Gen.facts

/-!
# The body's arithmetic, read at one element, on the extended reals

The body multiplies a `[5000, 384]` block of messages, element by element, by the product of a `[5000, 8]` block of
weights with a constant `[8, 384]` table. The table's entry `(j, l)` is one when column `l` lies in the `j`-th span of
48 columns (`l / 48 = j`) and zero otherwise. On the extended reals `x * 0 = 0` and `x * 1 = x` for every `x`, the two
infinities included, so of the eight terms `w[p, j] * E[j, l]` of the product at `(p, l)` one survives, `w[p, l / 48]`:
the product copies each weight across its span of 48 columns, and the body's value at `(p, l)` is
`m[p, l] * w[p, l / 48]`. No finiteness of the operands is needed.
-/

/-! ### The table's words -/

/-- Every word of the table, by row and column: the pattern of one in the row's span of 48 columns, of zero elsewhere.
    The 3072 cases by computation. -/
theorem table_rc : ∀ j : Fin 8, ∀ l : Fin 384,
    lit0 ⟨j.val * 384 + l.val, by omega⟩ = if l.val / 48 = j.val then 0x3F800000#32 else 0x00000000#32 := by
  decide +kernel

/-- The row-major position of `(j, l)` in the table is `j * 384 + l`. -/
theorem rowMajor_ix2_val (j : Fin 8) (l : Fin 384) : (S8x384.rowMajor (ix2 j l)).val = j.val * 384 + l.val :=
  Shape.rowMajor_val_two (d := ![8, 384]) (ix2 j l)

/-- The table's word at `(j, l)`. -/
theorem table_word (j : Fin 8) (l : Fin 384) :
    lit0 (S8x384.rowMajor (ix2 j l)) = if l.val / 48 = j.val then 0x3F800000#32 else 0x00000000#32 :=
  (congrArg lit0 (Fin.ext (rowMajor_ix2_val j l))).trans (table_rc j l)

/-! ### The dimension numbers of the product, read per axis

The product contracts the weights' axis 1 with the table's axis 0; the result's row is the weights' row and its column
the table's column. -/

/-- The weights' row is the result's row. -/
theorem dot_lhs0 (i : S5000x384.Idx) (q : dot_S5000x8_S8x384_S5000x384_1_0_0_1_n_n.contr.Idx) :
    (dot_S5000x8_S8x384_S5000x384_1_0_0_1_n_n.lhsIdx i q 0).val = (i 0).val := by
  unfold DotDims.lhsIdx
  rw [dif_neg (show ¬(0 : Fin S5000x8.rank) ∈ dot_S5000x8_S8x384_S5000x384_1_0_0_1_n_n.lhsBatch by decide),
    dif_pos (show (0 : Fin S5000x8.rank) ∈ dot_S5000x8_S8x384_S5000x384_1_0_0_1_n_n.lhsNonContracting by decide)]
  rfl

/-- The weights' column is the contraction position. -/
theorem dot_lhs1 (i : S5000x384.Idx) (q : dot_S5000x8_S8x384_S5000x384_1_0_0_1_n_n.contr.Idx) :
    (dot_S5000x8_S8x384_S5000x384_1_0_0_1_n_n.lhsIdx i q 1).val = (q ⟨0, by decide⟩).val :=
  dot_S5000x8_S8x384_S5000x384_1_0_0_1_n_n.lhsIdx_val_of_single rfl i q

/-- The table's row is the contraction position. -/
theorem dot_rhs0 (i : S5000x384.Idx) (q : dot_S5000x8_S8x384_S5000x384_1_0_0_1_n_n.contr.Idx) :
    (dot_S5000x8_S8x384_S5000x384_1_0_0_1_n_n.rhsIdx i q 0).val = (q ⟨0, by decide⟩).val :=
  dot_S5000x8_S8x384_S5000x384_1_0_0_1_n_n.rhsIdx_val_of_single rfl i q

/-- The table's column is the result's column. -/
theorem dot_rhs1 (i : S5000x384.Idx) (q : dot_S5000x8_S8x384_S5000x384_1_0_0_1_n_n.contr.Idx) :
    (dot_S5000x8_S8x384_S5000x384_1_0_0_1_n_n.rhsIdx i q 1).val = (i 1).val := by
  unfold DotDims.rhsIdx
  rw [dif_neg (show ¬(1 : Fin S8x384.rank) ∈ dot_S5000x8_S8x384_S5000x384_1_0_0_1_n_n.rhsBatch by decide),
    dif_pos (show (1 : Fin S8x384.rank) ∈ dot_S5000x8_S8x384_S5000x384_1_0_0_1_n_n.rhsNonContracting by decide)]
  rfl

/-- The sum over the table's rows keeps one term: the weight of the column's span. -/
theorem expand_sum (v0 : Vec Ideal S5000x8 .f32) (v2 : Vec Ideal S8x384 .f32)
    (hE : ∀ i : S8x384.Idx, v2 i = FloatOps.ofBits (F := Ideal) .f32 (lit0 (S8x384.rowMajor i)))
    (p : Fin 5000) (l : Fin 384) :
    ∑ j : Fin 8, v0 (ix2 p j) * v2 (ix2 j l) = v0 (ix2 p ⟨l.val / 48, by omega⟩) := by
  rw [Finset.sum_eq_single (⟨l.val / 48, by omega⟩ : Fin 8)]
  · rw [hE, table_word, if_pos rfl, Ideal.ofBits_def, Ideal.ofBits_one_f32, mul_one]
  · intro j _ hj
    rw [hE, table_word, if_neg (fun h => hj (Fin.ext h.symm)), Ideal.ofBits_def, Ideal.ofBits_zero_f32, mul_zero]
  · intro h
    exact absurd (Finset.mem_univ _) h

/-- The body's value at `(p, l)`: the message times the weight of the column's span. -/
theorem pay_apply (v0 : Vec Ideal S5000x8 .f32) (v2 : Vec Ideal S8x384 .f32) (v4 : Vec Ideal S5000x384 .f32)
    (hE : ∀ i : S8x384.Idx, v2 i = FloatOps.ofBits (F := Ideal) .f32 (lit0 (S8x384.rowMajor i)))
    (p : Fin 5000) (l : Fin 384) :
    k0_pay1 (F := Ideal) v0 v2 v4 (ix2 p l) = v4 (ix2 p l) * v0 (ix2 p ⟨l.val / 48, by omega⟩) := by
  unfold k0_pay1
  simp only [shapeCast_self]
  refine (mulf_apply _ _ _).trans ?_
  refine (congrArg (v4 (ix2 p l) * ·) (Cert.LibDot.matmul_zero_apply dot_S5000x8_S8x384_S5000x384_1_0_0_1_n_n rfl rfl
    dot_lhs0 dot_lhs1 dot_rhs0 dot_rhs1 (some .fp32) v0 v2 p l)).trans ?_
  exact congrArg (v4 (ix2 p l) * ·) (expand_sum v0 v2 hE p l)
end Cert.KernelIdeal.Expand
end
-- ==== Proof.KernelValue.lean ====
/-
  What the kernel's program leaves in its result, as one function of the arrays the region finds.

  The region runs over 40 grid points; point `t` stages rows `5000·t … 5000·t + 4999` of the regrouped message array
  `[200000, 384]` and of the regrouped weight array `[200000, 8]`, and the whole constant table `[8, 384]`, and writes back
  the same rows of the output.  Within a row the body multiplies column `l` of the message by the weight of the row's
  group `l / 48` (the table only copies each of the 8 weights across its span of 48 columns).  So the output array is
  `A0 (r, l) · A1 (r, l / 48)` at every index: the blocks tile the array (row `r` is in point `r / 5000`'s block), and each
  block is the restriction of that one function.  After the region the program regroups the `[200000, 384]` array as
  `[1600000, 48]`.
-/
import proofs.«109882_j89386859364991_2_alg».proof.Proof.Gen.KernelIdeal.Frame
import proofs.«109882_j89386859364991_2_alg».proof.Proof.Spec
import proofs.«109882_j89386859364991_2_alg».proof.Proof.HostSide
import proofs.«109882_j89386859364991_2_alg».proof.Proof.Expand
import Idealize.ShloMosaic.Lib.Pipeline.Value
import Idealize.ShloMosaic.Lib.StableHlo.Run
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

attribute [local instance] Cert.KernelIdeal.Gen.facts

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the message, weight and output windows move together down the rows, one
    block per point, and no window moves along the columns; the table's window never moves. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem hN : cfg0.N = 40 := N_0

/-- The table window's block at any point is the whole table. -/
theorem table_blk (c : Dev nD)
    (hT : (V m c main_cst : S8x384.Idx → Elt Ideal .f32) = fun i => FloatOps.ofBits (F := Ideal) .f32 (lit0 (S8x384.rowMajor i)))
    (t : Fin cfg0.N) (i : S8x384.Idx) :
    iblk m c 2 t i = FloatOps.ofBits (F := Ideal) .f32 (lit0 (S8x384.rowMajor i)) := by
  obtain ⟨-, -, -, -, e4, e5, -, -⟩ := idx_facts t
  show V m c main_cst (((cfg0.win 2).blk t).view.emb i) = _
  have h : ((cfg0.win 2).blk t).view.emb i = i := by
    funext a; apply Fin.ext
    match a with
    | ⟨0, _⟩ => show win0_2.index t (0 : Fin 2) * 8 + 1 * (i 0).val = (i 0).val; omega
    | ⟨1, _⟩ => show win0_2.index t (1 : Fin 2) * 384 + 1 * (i 1).val = (i 1).val; omega
  rw [h, hT]

/-- WHAT POINT `t` WRITES BACK is block `t` of `G3` of the message and weight arrays as the region finds them. -/
theorem flushed3_eq (c : Dev nD)
    (hT : (V m c main_cst : S8x384.Idx → Elt Ideal .f32) = fun i => FloatOps.ofBits (F := Ideal) .f32 (lit0 (S8x384.rowMajor i)))
    (t : Fin cfg0.N) :
    (dats m 0 c).flushed 3 t = ((cfg0.win 3).blk t).view.read (Elt Ideal) (G3 (V m c main_v23) (V m c main_v24)) := by
  show (cfg0.win 3).cut (grid0.coords t) ((dats m 0 c).after 3 t) = _
  rw [after0_3]
  unfold out0_3
  rw [View.canon_unit_zero hz]
  simp only [View.ld_unit_zero (S := S5000x384) hz, View.ld_unit_zero (S := S5000x8) hz, View.ld_unit_zero (S := S8x384) hz]
  obtain ⟨e0, e1, e2, e3, -, -, e6, e7⟩ := idx_facts t
  funext j
  obtain ⟨p, l, rfl⟩ : ∃ (p : Fin 5000) (l : Fin 384), (j : S5000x384.Idx) = ix2 p l := ⟨j 0, j 1, eq_ix2 j⟩
  show k0_pay1 (F := Ideal) (iblk m c 1 t) (iblk m c 2 t) (iblk m c 0 t) (ix2 p l)
    = G3 (V m c main_v23) (V m c main_v24) (((cfg0.win 3).blk t).view.emb (ix2 p l))
  refine (Expand.pay_apply (iblk m c 1 t) (iblk m c 2 t) (iblk m c 0 t) (table_blk m c hT t) p l).trans ?_
  have h0 : ((cfg0.win 0).blk t).view.emb (ix2 p l) = ((cfg0.win 3).blk t).view.emb (ix2 p l) := by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 384 + 1 * l.val = win0_3.index t (1 : Fin 2) * 384 + 1 * l.val; omega
  have h1 : ((cfg0.win 1).blk t).view.emb (ix2 p (⟨l.val / 48, by omega⟩ : Fin 8)) = grp (((cfg0.win 3).blk t).view.emb (ix2 p l)) := by
    funext a; apply Fin.ext
    match a with
    | ⟨0, _⟩ => show win0_1.index t (0 : Fin 2) * 5000 + 1 * p.val = win0_3.index t (0 : Fin 2) * 5000 + 1 * p.val; omega
    | ⟨1, _⟩ => show win0_1.index t (1 : Fin 2) * 8 + 1 * (l.val / 48) = (win0_3.index t (1 : Fin 2) * 384 + 1 * l.val) / 48; omega
  have a0 : iblk m c 0 t (ix2 p l)
      = (V m c main_v23 : S200000x384.Idx → EReal) (((cfg0.win 3).blk t).view.emb (ix2 p l)) := by
    show (V m c main_v23 : S200000x384.Idx → EReal) (((cfg0.win 0).blk t).view.emb (ix2 p l)) = _
    rw [h0]
  have a1 : iblk m c 1 t (ix2 p (⟨l.val / 48, by omega⟩ : Fin 8))
      = (V m c main_v24 : S200000x8.Idx → EReal) (grp (((cfg0.win 3).blk t).view.emb (ix2 p l))) := by
    show (V m c main_v24 : S200000x8.Idx → EReal) (((cfg0.win 1).blk t).view.emb (ix2 p (⟨l.val / 48, by omega⟩ : Fin 8))) = _
    rw [h1]
  rw [a0, a1]
  rfl

/-- An index of the output array is in point `t`'s block iff each coordinate is in the block's range on its axis. -/
theorem mem_blk3 (t : Fin cfg0.N) (i : S200000x384.Idx) :
    i ∈ ((cfg0.win 3).blk t).view.set ↔ ∀ a : Fin 2, win0_3.index t a * S5000x384.size a ≤ (i a).val ∧ (i a).val < win0_3.index t a * S5000x384.size a + S5000x384.size a := by
  show i ∈ ((View.whole main_v25).slice (win0_3.rect t)).set ↔ _
  rw [View.set_slice_whole, Rect.mem_set_unit]
  exact Iff.rfl

/-- The blocks tile the output array: row `r` lies in the block of point `r / 5000`. -/
theorem cover3 (i : S200000x384.Idx) :
    ∃ t : Fin cfg0.N, (cfg0.win 3).flush t = true ∧ i ∈ ((cfg0.win 3).blk t).view.set := by
  have hi0 : (i 0).val < 200000 := (i 0).isLt
  have hi1 : (i 1).val < 384 := (i 1).isLt
  let t : Fin cfg0.N := ⟨(i 0).val / 5000, by rw [hN]; omega⟩
  obtain ⟨-, -, -, -, -, -, e6, e7⟩ := idx_facts t
  have ht : t.val = (i 0).val / 5000 := rfl
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 384 ≤ (i 1).val ∧ (i 1).val < win0_3.index t (1 : Fin 2) * 384 + 384; omega

/-- THE OUTPUT ARRAY after the region: `G3` of the message and weight arrays the region found. -/
theorem final3 (c : Dev nD)
    (hT : (V m c main_cst : S8x384.Idx → Elt Ideal .f32) = fun i => FloatOps.ofBits (F := Ideal) .f32 (lit0 (S8x384.rowMajor i))) :
    (dats m 0 c).arrAt 3 cfg0.N = G3 (V m c main_v23) (V m c main_v24) :=
  (dats m 0 c).arrAt_eq_of_cover 3 (G3 (V m c main_v23) (V m c main_v24)) (fun t _ => flushed3_eq m c hT t) cover3

set_option maxHeartbeats 1000000 in
/-- After the region the program regroups the product array as `[1600000, 48]`: the result buffer. -/
theorem tail_result (c : Dev nD)
    (hT : (V m c main_cst : S8x384.Idx → Elt Ideal .f32) = fun i => FloatOps.ofBits (F := Ideal) .f32 (lit0 (S8x384.rowMajor i))) :
    Pipeline.afterTail₀ cfgs (dats m) 0 (V0 m) [hostOps1] c main_v26
      = shapeCast S1600000x48 (G3 (V m c main_v23) (V m c main_v24)) Gen.shapeCasts_S200000x384_S1600000x48 := by
  unfold Pipeline.afterTail₀
  show StableHlo.after hostOps1 _ (Proc.devRef .tc main_v26) = _
  after_results
  rw [Pipeline.withArrays_arr spec0 launch0.win.arr_inj c _ _ 3,
    show (dats m 0 c).arrAt 3 (cfgs 0).N = G3 (V m c main_v23) (V m c main_v24) from final3 m c hT]
  rfl

/-- THE KERNEL PROGRAM'S RUN, READ: every weakly fair execution terminates with the result buffer at the regrouped
    product of the regrouped messages and the regrouped weights of the launched arguments, the arguments unchanged. -/
theorem run : θ_run defs (onTc (τ := τ) (main (F := Ideal))) ⟨m, fun _ => 0, ρ⟩ fun r => ∀ c : Dev nD,
      r.2.mem ((c.tc : Thread nD τ).loc main_v26)
        = shapeCast S1600000x48
            (G3 (shapeCast S200000x384 (m ((c.tc : Thread nD τ).loc main_arg2)) Gen.shapeCasts_S1600000x48_S200000x384)
              (shapeCast S200000x8 (HostSide.weights (F := Ideal) (m ((c.tc : Thread nD τ).loc main_arg1)))
                Gen.shapeCasts_S1600000_S200000x8))
            Gen.shapeCasts_S200000x384_S1600000x48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      (((h c).2 main_v26 (Pipeline.mem_restRefs_of main_v26 (by decide) (by decide))).trans
        (tail_result m c (HostSide.V_table m c))).trans
        (by rw [HostSide.V_messages m c, HostSide.V_weights m c]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.LibSegment.lean ====
/-
  Row gather and segment sum read at an index, over abstract extents `N` (rows of the table), `E` (number of start
  indices) and `C` (columns).

  * ROW GATHER. `stablehlo.gather` of a table `x : [N, C]` at start indices `idx : [E, 1]` with offset axis 1, collapsed
    axis 0, start index map `[0]`, index vector axis 1 and slice sizes `[1, C]` (what taking rows `x[src]` is) reads, at
    `(e, k)`, the table at row `idx[e, 0]` — the word read as a SIGNED integer and CLAMPED into `[0, N − 1]` — and
    column `k`: on axis 0 the operand coordinate is the clamped start, on axis 1 it is the offset coordinate `k`.
  * SEGMENT SUM. `stablehlo.scatter` with an add body into an operand `x : [N, C]` of updates `upd : [E, C]` at scatter
    indices `idx : [E, 1]` (update window axis 1, inserted window axis 0, scatter-dims-to-operand-dims `[0]`, index
    vector axis 1) is, at the extended reals and at `(i, k)`, `x (i, k)` plus the sum of `upd (e, k)` over the edges `e`
    whose index `idx[e, 0]`, read SIGNED and NOT clamped, equals `i`: update `(e, k')` lands at row `idx[e, 0]`, column
    `k'`, and is dropped when that row is outside `[0, N)`; so it lands on `(i, k)` exactly when `idx[e, 0] = i` and
    `k' = k`, and the filtered sum over update indices re-indexes to the sum over those edges.
  * The same for a vector operand `x : [N]` with updates `upd : [E]` (no window axis).
-/
import Idealize.ShloMosaic.PureOps.Ideal
import Idealize.ShloMosaic.Lib.ValueIdx

noncomputable section

open scoped BigOperators

namespace Cert.LibSegment

open Idealize.ShloMosaic Idealize.ShloMosaic.ValueIdx

/-- The row a start index names: read signed and clamped into `[0, N − 1]`. -/
def clampRow (N : ℕ) (hN : 0 < N) {w : ℕ} (v : BitVec w) : Fin N := ⟨min v.toInt.toNat (N - 1), by omega⟩

/-- The edges whose index, read signed and not clamped, is node `i`. -/
def landing {N E w : ℕ} (idx : IVec ⟨2, ![E, 1]⟩ w) (i : Fin N) : Finset (Fin E) :=
  Finset.univ.filter fun e => (idx (ix2 e (0 : Fin 1))).toInt = (i.val : ℤ)

/-! ## Row gather -/

/-- The dimension numbers of a row gather: operand `[N, C]`, start indices `[E, 1]`, result `[E, C]`; their conditions
    `wf` are decided on a program's literal shapes. -/
abbrev rowGatherDims (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table at the row `idx[e, 0]` names (signed, clamped into `[0, N − 1]`) and
    column `k`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (clampRow N hN (idx (ix2 e (0 : Fin 1)))) k) := by
  unfold Host.gather
  congr 1
  funext a
  refine Fin.ext ?_
  match a with
  | ⟨0, _⟩ =>
    -- axis 0 is collapsed and named by the start index map: the coordinate is the clamped start
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is the one kept axis, not named by the start index map: start 0, offset coordinate `k`
    show (rowGatherDims N E C wf).start (ix2 e k) idx 1 + (rowGatherDims N E C wf).batchCoord (ix2 e k) 1
      + (rowGatherDims N E C wf).offCoord (ix2 e k) 1 = _
    rw [GatherDims.batchCoord_eq_zero _ _ _ List.not_mem_nil]
    have hst : (rowGatherDims N E C wf).start (ix2 e k) idx 1 = 0 := by
      unfold GatherDims.start
      rw [dif_neg (fun h => absurd (List.mem_singleton.mp h) (show ¬ (1 : Fin 2) = 0 by decide))]
    rw [hst]
    simp only [Nat.add_zero, Nat.zero_add]
    rfl

/-! ## Scatter: where an update lands -/

/-- An update lands on operand index `i` exactly when, on every operand axis, its start plus its window coordinate is
    `i`'s coordinate (in particular inside the operand). -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrArg (fun f => (f a).val) hf
      simp only at h1
      have := h a
      omega
    · intro hall
      funext a
      refine Fin.ext ?_
      show (d.start j idx a + (d.window j a : ℤ)).toNat = (i a).val
      rw [hall a]; exact Int.toNat_natCast _
  · rename_i h
    constructor
    · intro h0; exact absurd h0 (by simp)
    · intro hall
      exfalso; apply h
      intro a
      rw [hall a]
      exact ⟨Int.natCast_nonneg _, by exact_mod_cast (i a).isLt⟩

/-! ## Segment sum into rows -/

/-- The dimension numbers of a row scatter: operand `[N, C]`, scatter indices `[E, 1]`, updates `[E, C]`; their
    conditions `wf` are decided on a program's literal shapes. -/
abbrev rowScatterDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k')` lands on `(i, k)` exactly when the index `idx[e, 0]`, read signed, is `i` and `k' = k`: on axis 0
    the start is the signed index and the window coordinate 0, on axis 1 the start is 0 and the window coordinate `k'`. -/
theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (k' : Fin C) (i : Fin N) (k : Fin C) :
    (rowScatterDims N E C wf).resultIdx? (ix2 e k') idx = some (ix2 i k)
      ↔ (idx (ix2 e (0 : Fin 1))).toInt = (i.val : ℤ) ∧ k' = k := by
  rw [resultIdx?_eq_some_iff]
  have hs0 : (rowScatterDims N E C wf).start (ix2 e k') idx 0 = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e k') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e k') idx 1 = 0 := by
    unfold ScatterDims.start
    rw [dif_neg (fun h => absurd (List.mem_singleton.mp h) (show ¬ (1 : Fin 2) = 0 by decide))]
  have hw0 : (rowScatterDims N E C wf).window (ix2 e k') 0 = 0 := rfl
  have hw1 : (rowScatterDims N E C wf).window (ix2 e k') 1 = k'.val := rfl
  constructor
  · intro h
    have h0 := h 0
    have h1 := h 1
    rw [hs0, hw0] at h0
    rw [hs1, hw1] at h1
    have e0 : (((ix2 i k : (⟨2, ![N, C]⟩ : Shape).Idx) 0).val : ℤ) = (i.val : ℤ) := rfl
    have e1 : (((ix2 i k : (⟨2, ![N, C]⟩ : Shape).Idx) 1).val : ℤ) = (k.val : ℤ) := rfl
    rw [e0] at h0; rw [e1] at h1
    exact ⟨by omega, Fin.ext (by omega)⟩
  · rintro ⟨h0, rfl⟩ a
    match a with
    | ⟨0, _⟩ =>
      show (rowScatterDims N E C wf).start (ix2 e k') idx 0 + (((rowScatterDims N E C wf).window (ix2 e k') 0 : ℕ) : ℤ) = (i.val : ℤ)
      rw [hs0, hw0, h0]; simp
    | ⟨1, _⟩ =>
      show (rowScatterDims N E C wf).start (ix2 e k') idx 1 + (((rowScatterDims N E C wf).window (ix2 e k') 1 : ℕ) : ℤ) = (k'.val : ℤ)
      rw [hs1, hw1]; simp

/-- THE SEGMENT SUM READ AT `(i, k)`: the operand there plus the sum, over the edges whose index read signed is `i`, of
    the update at `(e, k)`. -/
theorem rowScatterAdd_apply {N E C w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd (rowScatterDims N E C wf) x idx upd (ix2 i k) = x (ix2 i k) + ∑ e ∈ landing idx i, upd (ix2 e k) := by
  unfold Ideal.hostScatterAdd
  congr 1
  -- the update indices landing on `(i, k)` are the `(e, k)` with `e` an edge into `i`: re-index by the first coordinate
  refine Finset.sum_nbij' (fun j => (j 0 : Fin E)) (fun e => ix2 e k) ?_ ?_ ?_ ?_ ?_
  · intro j hj
    obtain ⟨e, k', rfl⟩ : ∃ (e : Fin E) (k' : Fin C), j = ix2 e k' := ⟨j 0, j 1, eq_ix2 j⟩
    have hl := (rowScatter_lands wf idx e k' i k).mp (Finset.mem_filter.mp hj).2
    exact Finset.mem_filter.mpr ⟨Finset.mem_univ _, hl.1⟩
  · intro e he
    exact Finset.mem_filter.mpr ⟨Finset.mem_univ _,
      (rowScatter_lands wf idx e k i k).mpr ⟨(Finset.mem_filter.mp he).2, rfl⟩⟩
  · intro j hj
    obtain ⟨e, k', rfl⟩ : ∃ (e : Fin E) (k' : Fin C), j = ix2 e k' := ⟨j 0, j 1, eq_ix2 j⟩
    obtain ⟨_, rfl⟩ := (rowScatter_lands wf idx e k' i k).mp (Finset.mem_filter.mp hj).2
    rfl
  · intro e _
    rfl
  · intro j hj
    obtain ⟨e, k', rfl⟩ : ∃ (e : Fin E) (k' : Fin C), j = ix2 e k' := ⟨j 0, j 1, eq_ix2 j⟩
    obtain ⟨_, rfl⟩ := (rowScatter_lands wf idx e k' i k).mp (Finset.mem_filter.mp hj).2
    rfl

/-! ## Segment sum into a vector -/

/-- The dimension numbers of a scatter into a vector: operand `[N]`, scatter indices `[E, 1]`, updates `[E]` (no window
    axis); their conditions `wf` are decided on a program's literal shapes. -/
abbrev vecScatterDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on `i` exactly when the index `idx[e, 0]`, read signed, is `i`: on the one operand axis the start is
    the signed index and the window coordinate 0. -/
theorem vecScatter_lands {N E w : ℕ} (wf : ScatterDims.WF ⟨1, ![N]⟩ ⟨2, ![E, 1]⟩ ⟨1, ![E]⟩ [] [0] [0] 1)
    (idx : IVec ⟨2, ![E, 1]⟩ w) (e : Fin E) (i : Fin N) :
    (vecScatterDims N E wf).resultIdx? (ix1 e) idx = some (ix1 i) ↔ (idx (ix2 e (0 : Fin 1))).toInt = (i.val : ℤ) := by
  rw [resultIdx?_eq_some_iff]
  have hs0 : (vecScatterDims N E wf).start (ix1 e) idx 0 = (idx (ix2 e (0 : Fin 1))).toInt := by
    unfold ScatterDims.start
    rw [dif_pos (show (0 : Fin 1) ∈ (vecScatterDims N E wf).scatterDimsToOperandDims from List.mem_singleton.mpr rfl)]
    have hsi : (vecScatterDims N E wf).siIdx (ix1 e) ⟨List.idxOf (0 : Fin 1) (vecScatterDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatterDims N E wf).window (ix1 e) 0 = 0 := rfl
  constructor
  · intro h
    have h0 := h 0
    rw [hs0, hw0] at h0
    have e0 : (((ix1 i : (⟨1, ![N]⟩ : Shape).Idx) 0).val : ℤ) = (i.val : ℤ) := rfl
    rw [e0] at h0
    omega
  · intro h0 a
    match a with
    | ⟨0, _⟩ =>
      show (vecScatterDims N E wf).start (ix1 e) idx 0 + (((vecScatterDims N E wf).window (ix1 e) 0 : ℕ) : ℤ) = (i.val : ℤ)
      rw [hs0, hw0, h0]; simp

/-- THE SEGMENT SUM INTO A VECTOR READ AT `i`: the operand there plus the sum, over the edges whose index read signed
    is `i`, of the update at `e`. -/
theorem vecScatterAdd_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecScatterDims N E wf) x idx upd (ix1 i) = x (ix1 i) + ∑ e ∈ landing idx i, upd (ix1 e) := by
  unfold Ideal.hostScatterAdd
  congr 1
  -- the update indices landing on `i` are the edges into `i`: re-index by the one coordinate
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _, (vecScatter_lands wf idx e i).mp (Finset.mem_filter.mp hj).2⟩
  · intro e he
    exact Finset.mem_filter.mpr ⟨Finset.mem_univ _, (vecScatter_lands wf idx e i).mpr (Finset.mem_filter.mp he).2⟩
  · intro j _
    obtain ⟨e, rfl⟩ : ∃ e : Fin E, j = ix1 e := ⟨j 0, eq_ix1 j⟩
    rfl
  · intro e _
    rfl
  · intro j _
    obtain ⟨e, rfl⟩ : ∃ e : Fin E, j = ix1 e := ⟨j 0, eq_ix1 j⟩
    rfl

end Cert.LibSegment

end
-- ==== Proof.LibVecGather.lean ====
/-
  A gather from a vector read at an index, over abstract extents `N` (entries of the table) and `E` (number of start
  indices).

  `stablehlo.gather` of a table `x : [N]` at start indices `idx : [E, 1]` with no offset axis, collapsed axis 0, start
  index map `[0]`, index vector axis 1 and slice sizes `[1]` (what taking entries `x[src]` is) reads, at `e`, the table
  at the entry `idx[e, 0]` names — the word read as a SIGNED integer and CLAMPED into `[0, N − 1]`: the one operand axis
  is collapsed and named by the start index map, so its coordinate is the clamped start, with no batching and no
  offset coordinate.
-/
import Idealize.ShloMosaic.PureOps.Ideal
import Idealize.ShloMosaic.Lib.ValueIdx
import proofs.«109882_j89386859364991_2_alg».proof.Proof.LibSegment

noncomputable section

namespace Cert.LibVecGather

open Idealize.ShloMosaic Idealize.ShloMosaic.ValueIdx Cert.LibSegment

/-- The dimension numbers of a gather from a vector: operand `[N]`, start indices `[E, 1]`, result `[E]`; their
    conditions `wf` are decided on a program's literal shapes. -/
abbrev vecGatherDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the table at the entry `idx[e, 0]` names (signed, clamped into `[0, N − 1]`). -/
theorem vecGather_apply {α : Type} {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  -- the one axis is collapsed and named by the start index map: the coordinate is the clamped start
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibVecGather

end
-- ==== Proof.LibCount.lean ====
/-
  An integer histogram read at a bin, over abstract extents `N` (number of bins) and `E` (number of positions).

  `stablehlo.scatter` with an integer add body, into an operand `z : [N]` of zeros, of updates `ones : [E]` all equal
  to one, at scatter indices `idx : [E, 1]`, is a histogram: the fold over the update positions adds one to bin `i` for
  every position whose index word, read SIGNED and not clamped, is `i`, so bin `i` holds the number of those positions
  as a 32-bit word. When the number of positions is below `2^31` that number does not wrap: a bin that some position
  lands on holds, read signed, a count of at least one. The signed maximum of a word that is at least one with the word
  one is the word itself. Hence a gather from `max(counts, 1)` at an index word that lies in `[0, N)` and is itself one
  of the scattered index words is the gather from `counts`.
-/
import Idealize.ShloMosaic.PureOps.Ideal
import Idealize.ShloMosaic.Lib.ValueIdx
import proofs.«109882_j89386859364991_2_alg».proof.Proof.LibSegment
import proofs.«109882_j89386859364991_2_alg».proof.Proof.LibVecGather

noncomputable section

namespace Cert.LibCount

open Idealize.ShloMosaic Idealize.ShloMosaic.ValueIdx Cert.LibSegment Cert.LibVecGather

/-! ## The signed maximum with one -/

/-- A word that is at least one, read signed, is its own signed maximum with the word one. -/
theorem maxsi_one_of_pos (c : BitVec 32) (h : 1 ≤ c.toInt) : IntOp.maxsi c 1#32 = c := by
  unfold IntOp.maxsi
  split
  · rfl
  · rename_i hlt
    -- not `1 < c`, and `1 ≤ c`: the word is one
    have h1 : (1#32 : BitVec 32).toInt = 1 := by decide
    have hc : c.toInt = 1 := by
      rw [BitVec.slt_iff_toInt_lt, h1] at hlt
      omega
    exact (BitVec.eq_of_toInt_eq (by rw [hc, h1])).symm

/-! ## The scatter's fold, one step and a whole list -/

/-- One step of the scatter's fold: update position `n` adds its update to the element it lands on. -/
def step {s si u : Shape} {w : ℕ} (d : ScatterDims s si u) (idx : IVec si w) (upd : u.Idx → BitVec 32)
    (r : s.Idx → BitVec 32) (n : Fin u.numel) : s.Idx → BitVec 32 :=
  match d.resultIdx? (u.rowMajor.symm n) idx with
  | some i => fun i' => if i' = i then IntOp.addi (r i) (upd (u.rowMajor.symm n)) else r i'
  | none => r

/-- The scatter with an integer add body is the left fold of `step` over the update positions. -/
theorem scatter_eq_foldl {s si u : Shape} {w : ℕ} (d : ScatterDims s si u) (x : s.Idx → BitVec 32) (idx : IVec si w)
    (upd : u.Idx → BitVec 32) :
    Host.scatter d IntOp.addi x idx upd = (List.finRange u.numel).foldl (step d idx upd) x := rfl

/-- One step read at `i`: the update is added when position `n` lands on `i`, and nothing changes otherwise. -/
theorem step_apply {s si u : Shape} {w : ℕ} (d : ScatterDims s si u) (idx : IVec si w) (upd : u.Idx → BitVec 32)
    (r : s.Idx → BitVec 32) (n : Fin u.numel) (i : s.Idx) :
    step d idx upd r n i
      = if d.resultIdx? (u.rowMajor.symm n) idx = some i then r i + upd (u.rowMajor.symm n) else r i := by
  unfold step
  generalize d.resultIdx? (u.rowMajor.symm n) idx = o
  cases o with
  | none =>
    show r i = _
    exact (if_neg (Option.some_ne_none i).symm).symm
  | some i0 =>
    show (if i = i0 then IntOp.addi (r i0) (upd (u.rowMajor.symm n)) else r i) = _
    by_cases hii : i = i0
    · subst hii
      rw [if_pos rfl, if_pos rfl]
      rfl
    · rw [if_neg hii, if_neg (fun h => hii (Option.some.inj h).symm)]

/-- The fold over a list of update positions, every update being one, read at `i`: the start there plus the number of
    positions in the list that land on `i`, as a 32-bit word. -/
theorem foldl_step_ones {s si u : Shape} {w : ℕ} (d : ScatterDims s si u) (idx : IVec si w) (upd : u.Idx → BitVec 32)
    (ho : ∀ j, upd j = 1#32) (i : s.Idx) (l : List (Fin u.numel)) (x : s.Idx → BitVec 32) :
    l.foldl (step d idx upd) x i
      = x i + BitVec.ofNat 32 (l.countP fun n => decide (d.resultIdx? (u.rowMajor.symm n) idx = some i)) := by
  induction l generalizing x with
  | nil => simp
  | cons n l ih =>
    rw [List.foldl_cons, ih, step_apply, List.countP_cons, ho]
    by_cases hl : d.resultIdx? (u.rowMajor.symm n) idx = some i
    · rw [if_pos hl, if_pos (decide_eq_true hl), BitVec.ofNat_add, BitVec.add_assoc, BitVec.add_comm _ (BitVec.ofNat 32 1)]
    · rw [if_neg hl, if_neg (by simpa using hl), Nat.add_zero]

/-! ## The histogram -/

/-- A vector shape has as many elements as its one extent. -/
theorem numel_vec (E : ℕ) : (⟨1, ![E]⟩ : Shape).numel = E := by
  simp [Shape.numel]

/-- A number below `2^31`, as a 32-bit word read signed, is itself. -/
theorem toInt_ofNat_of_lt (c : ℕ) (hc : c < 2 ^ 31) : (BitVec.ofNat 32 c).toInt = (c : ℤ) := by
  have hn : (BitVec.ofNat 32 c).toNat = c := by
    rw [BitVec.toNat_ofNat]; exact Nat.mod_eq_of_lt (by omega)
  rw [BitVec.toInt_eq_toNat_of_lt (by rw [hn]; omega), hn]

/-- THE HISTOGRAM IS POSITIVE WHERE A POSITION LANDS: with fewer than `2^31` positions, the bin `i` that position `e`'s
    index word names holds, read signed, a count of at least one. -/
theorem vecScatterCount_pos {N E : ℕ} (swf : ScatterDims.WF ⟨1, ![N]⟩ ⟨2, ![E, 1]⟩ ⟨1, ![E]⟩ [] [0] [0] 1) (hE : E < 2 ^ 31)
    (z : (⟨1, ![N]⟩ : Shape).Idx → BitVec 32) (hz : ∀ j, z j = 0#32)
    (ones : (⟨1, ![E]⟩ : Shape).Idx → BitVec 32) (ho : ∀ j, ones j = 1#32)
    (sidx : IVec ⟨2, ![E, 1]⟩ 32) (i : Fin N) (e : Fin E) (h : (sidx (ix2 e (0 : Fin 1))).toInt = (i.val : ℤ)) :
    1 ≤ (Host.scatter (vecScatterDims N E swf) IntOp.addi z sidx ones (ix1 i)).toInt := by
  rw [scatter_eq_foldl, foldl_step_ones _ _ _ ho, hz, BitVec.zero_add]
  generalize hc : (List.finRange (⟨1, ![E]⟩ : Shape).numel).countP
    (fun n => decide ((vecScatterDims N E swf).resultIdx? ((⟨1, ![E]⟩ : Shape).rowMajor.symm n) sidx = some (ix1 i))) = c
  -- the count is at most the number of positions
  have hle : c ≤ E := by
    rw [← hc]
    refine (List.countP_le_length).trans (le_of_eq ?_)
    rw [List.length_finRange, numel_vec]
  -- and at least one: position `e` is in the list and lands on `i`
  have hpos : 0 < c := by
    rw [← hc]
    refine List.countP_pos_iff.mpr ⟨(⟨1, ![E]⟩ : Shape).rowMajor (ix1 e), List.mem_finRange _, ?_⟩
    rw [Equiv.symm_apply_apply]
    exact decide_eq_true ((vecScatter_lands swf sidx e i).mpr h)
  rw [toInt_ofNat_of_lt c (by omega)]
  omega

/-! ## Gathering from the clamped-below histogram -/

/-- GATHERING FROM `max(counts, 1)` IS GATHERING FROM `counts` at an index word that lies in `[0, N)` and is itself one
    of the scattered index words: the bin it names holds a count of at least one. -/
theorem gather_max_one_counts {N E : ℕ} (hN : 0 < N) (hE : E < 2 ^ 31)
    (swf : ScatterDims.WF ⟨1, ![N]⟩ ⟨2, ![E, 1]⟩ ⟨1, ![E]⟩ [] [0] [0] 1)
    (gwf : GatherDims.WF ⟨1, ![N]⟩ ⟨2, ![E, 1]⟩ ⟨1, ![E]⟩ [] [0] [] [0] [] 1 ![1])
    (z : (⟨1, ![N]⟩ : Shape).Idx → BitVec 32) (hz : ∀ j, z j = 0#32)
    (ones : (⟨1, ![E]⟩ : Shape).Idx → BitVec 32) (ho : ∀ j, ones j = 1#32)
    (ones' : (⟨1, ![N]⟩ : Shape).Idx → BitVec 32) (ho' : ∀ j, ones' j = 1#32)
    (sidx gidx : IVec ⟨2, ![E, 1]⟩ 32) (e : Fin E)
    (hs : sidx (ix2 e (0 : Fin 1)) = gidx (ix2 e (0 : Fin 1)))
    (h0 : 0 ≤ (gidx (ix2 e (0 : Fin 1))).toInt) (h1 : (gidx (ix2 e (0 : Fin 1))).toInt < (N : ℤ)) :
    Host.gather (vecGatherDims N E gwf) (maxsi (Host.scatter (vecScatterDims N E swf) IntOp.addi z sidx ones) ones') gidx (ix1 e)
      = Host.gather (vecGatherDims N E gwf) (Host.scatter (vecScatterDims N E swf) IntOp.addi z sidx ones) gidx (ix1 e) := by
  rw [vecGather_apply hN gwf, vecGather_apply hN gwf]
  show IntOp.maxsi (Host.scatter (vecScatterDims N E swf) IntOp.addi z sidx ones (ix1 (clampRow N hN (gidx (ix2 e (0 : Fin 1))))))
    (ones' (ix1 (clampRow N hN (gidx (ix2 e (0 : Fin 1)))))) = _
  rw [ho']
  refine maxsi_one_of_pos _ (vecScatterCount_pos swf hE z hz ones ho sidx _ e ?_)
  -- inside `[0, N)` the clamp does nothing
  rw [hs]
  unfold clampRow
  show (gidx (ix2 e (0 : Fin 1))).toInt = ((min (gidx (ix2 e (0 : Fin 1))).toInt.toNat (N - 1) : ℕ) : ℤ)
  omega

end Cert.LibCount

end
-- ==== Proof.Regroup.lean ====
/-
  Three regroupings read at an index.

  The message array `[1600000, 48]` is regrouped as `[200000, 384]`, the weight vector `[1600000]` as `[200000, 8]`, and
  the product array `[200000, 384]` back as `[1600000, 48]`; each regrouping keeps the row-major order of the elements.
  Edge `e`, feature `k` has row-major position `48·e + k = 384·(e / 8) + (48·(e mod 8) + k)`, so it sits at row `e / 8`,
  column `48·(e mod 8) + k` of the regrouped arrays; that column's group of 48 is `e mod 8`; and weight `e`, at position
  `e = 8·(e / 8) + e mod 8`, sits at `(e / 8, e mod 8)`. Hence the product array regrouped back holds, at `(e, k)`,
  message `(e, k)` times weight `e`.
-/
import proofs.«109882_j89386859364991_2_alg».proof.Proof.Spec
import proofs.«109882_j89386859364991_2_alg».proof.Proof.Gen.KernelIdeal
import Idealize.ShloMosaic.Lib.Pipeline.Value
import Idealize.ShloMosaic.Lib.ValueIdx

noncomputable section

namespace Cert.KernelIdeal.Regroup

open Cert.KernelIdeal Cert.KernelIdeal.KValue Idealize.ShloMosaic Idealize.ShloMosaic.ValueIdx

attribute [local instance] Cert.KernelIdeal.Gen.facts

/-- The group of 48 of column `48·q + k` (with `k < 48`) is `q`: the weight index of entry `(r, 48·q + k)` is `(r, q)`. -/
theorem grp_ix2 (r : Fin 200000) (q : Fin 8) (k : Fin 48) (hc : 48 * q.val + k.val < 384) :
    grp (ix2 r (⟨48 * q.val + k.val, hc⟩ : Fin 384)) = ix2 r q := by
  unfold grp
  funext a
  match a with
  | ⟨0, _⟩ => rfl
  | ⟨1, _⟩ =>
    refine Fin.ext ?_
    show (48 * q.val + k.val) / 48 = q.val
    have hk := k.isLt
    omega

/-- THE THREE REGROUPINGS READ AT `(e, k)`: the product array regrouped back holds message `(e, k)` times weight `e`. -/
theorem regroup_apply (h1 : S1600000x48.ShapeCasts S200000x384) (h2 : S1600000.ShapeCasts S200000x8) (h3 : S200000x384.ShapeCasts S1600000x48)
    (msg : S1600000x48.Idx → EReal) (w : S1600000.Idx → EReal) (e : Fin 1600000) (k : Fin 48) :
    shapeCast S1600000x48 (G3 (shapeCast S200000x384 msg h1) (shapeCast S200000x8 w h2)) h3 (ix2 e k) = msg (ix2 e k) * w (ix1 e) := by
  have he := e.isLt
  have hk := k.isLt
  have hr : e.val / 8 < 200000 := by omega
  have hq : e.val % 8 < 8 := by omega
  have hc : 48 * (e.val % 8) + k.val < 384 := by omega
  -- the position of `(e, k)` in `[1600000, 48]` is the position of `(e / 8, 48·(e mod 8) + k)` in `[200000, 384]`
  have hpos : (S200000x384.rowMajor (ix2 (⟨e.val / 8, hr⟩ : Fin 200000) (⟨48 * (e.val % 8) + k.val, hc⟩ : Fin 384))).val
      = (S1600000x48.rowMajor (ix2 e k)).val := by
    rw [Shape.rowMajor_val_two, Shape.rowMajor_val_two]
    show e.val / 8 * 384 + (48 * (e.val % 8) + k.val) = e.val * 48 + k.val
    omega
  -- the position of `e` in `[1600000]` is the position of `(e / 8, e mod 8)` in `[200000, 8]`
  have hposw : (S1600000.rowMajor (ix1 e)).val
      = (S200000x8.rowMajor (ix2 (⟨e.val / 8, hr⟩ : Fin 200000) (⟨e.val % 8, hq⟩ : Fin 8))).val := by
    rw [Shape.rowMajor_val_one, Shape.rowMajor_val_two]
    show e.val = e.val / 8 * 8 + e.val % 8
    omega
  refine (shapeCast_apply _ h3 (ix2 e k) (ix2 (⟨e.val / 8, hr⟩ : Fin 200000) (⟨48 * (e.val % 8) + k.val, hc⟩ : Fin 384)) hpos).trans ?_
  show shapeCast S200000x384 msg h1 (ix2 (⟨e.val / 8, hr⟩ : Fin 200000) (⟨48 * (e.val % 8) + k.val, hc⟩ : Fin 384))
    * shapeCast S200000x8 w h2 (grp (ix2 (⟨e.val / 8, hr⟩ : Fin 200000) (⟨48 * (e.val % 8) + k.val, hc⟩ : Fin 384))) = _
  rw [grp_ix2 (⟨e.val / 8, hr⟩ : Fin 200000) (⟨e.val % 8, hq⟩ : Fin 8) k hc]
  exact congrArg₂ (· * ·) (shapeCast_apply msg h1 _ (ix2 e k) hpos.symm) (shapeCast_apply w h2 _ (ix1 e) hposw)

end Cert.KernelIdeal.Regroup

end
-- ==== Proof.Bridge.lean ====
/-
  The kernel program's result and the reference's are one function of the arguments, when every target is a node.

  Both programs multiply `message (e, k)` by a weight of edge `e`.  The reference's weight is `1 / count[target e]`; the
  kernel program's is `1 / max(count, 1)[target e]`, computed on the regrouped arrays: its output at `(e, k)` is entry
  `(e / 8, 48·(e mod 8) + k)` of the `[200000, 384]` product array, which is the message at `(e, k)` times the weight
  at `(e / 8, e mod 8)` of the `[200000, 8]` regrouping, that is the weight of edge `e`.  With `0 ≤ target e < 100000` the
  histogram's index and the lookup's index are both `target e` itself, so bin `target e` counts edge `e` and holds at
  least 1: the maximum with 1 changes nothing there, and the two weights agree.
-/
import proofs.«109882_j89386859364991_2_alg».proof.Proof.HostSide
import proofs.«109882_j89386859364991_2_alg».proof.Proof.Spec
import proofs.«109882_j89386859364991_2_alg».proof.Proof.Gen.ReferenceIdeal.Read
import proofs.«109882_j89386859364991_2_alg».proof.Proof.LibCount
import proofs.«109882_j89386859364991_2_alg».proof.Proof.Regroup
import Idealize.ShloMosaic.Lib.Pipeline.Value
import Idealize.ShloMosaic.Lib.ValueIdx

noncomputable section

namespace Cert.Bridge

open Idealize.ShloMosaic Idealize.ShloMosaic.ValueIdx Cert.LibSegment Cert.LibVecGather Cert.LibCount

attribute [local instance] Cert.KernelIdeal.Gen.facts Cert.ReferenceIdeal.Gen.facts

/-- A word that is nonnegative as a signed integer is not below zero. -/
theorem slt_zero_false (x : BitVec 32) (h : 0 ≤ x.toInt) : x.slt 0#32 = false := by
  have h0 : (0#32 : BitVec 32).toInt = 0 := by decide
  simp only [BitVec.slt, h0]
  exact decide_eq_false (by omega)

/-- Clipping a nonnegative target below at 0 leaves it. -/
theorem clip0_of_nonneg (tgt : IVec Cert.KernelIdeal.S1600000 32) (e : Fin 1600000) (h : 0 ≤ (tgt (ix1 e)).toInt) :
    Cert.KernelIdeal.HostSide.clip0 tgt (ix1 e) = tgt (ix1 e) := by
  show IntOp.maxsi (0#32) (tgt (ix1 e)) = tgt (ix1 e)
  unfold IntOp.maxsi
  rw [slt_zero_false _ h]
  rfl

/-- jnp's wrap of a nonnegative index word leaves it. -/
theorem wrap_of_nonneg (v : IVec Cert.KernelIdeal.S1600000 32) (e : Fin 1600000) (h : 0 ≤ (v (ix1 e)).toInt) :
    Cert.KernelIdeal.HostSide.wrap v (ix1 e) = v (ix1 e) := by
  show Scalar.select (IntOp.cmpi .slt (v (ix1 e)) (0#32)) (IntOp.addi (v (ix1 e)) (100000#32)) (v (ix1 e)) = v (ix1 e)
  unfold Scalar.select IntOp.cmpi
  simp only [slt_zero_false _ h]
  rfl

open Cert.ReferenceIdeal.Read in
/-- The histogram's index word of edge `e` in the reference (clipped at 0, then wrapped) is the target itself. -/
theorem ref_sidx (tgt : IVec Cert.ReferenceIdeal.S1600000 32) (e : Fin 1600000) (h : 0 ≤ (tgt (ix1 e)).toInt) :
    val_main_v7 (F := Ideal) tgt (ix2 e (0 : Fin 1)) = tgt (ix1 e) := by
  rw [val_main_v7_apply]
  have hi : idx_main_v7 (ix2 e (0 : Fin 1)) = ix1 e := funext fun a => by
    match a with
    | ⟨0, _⟩ => rfl
  rw [hi]
  show Scalar.select (IntOp.cmpi .slt (IntOp.maxsi (0#32) (tgt (ix1 e))) (0#32))
    (IntOp.addi (IntOp.maxsi (0#32) (tgt (ix1 e))) (100000#32)) (IntOp.maxsi (0#32) (tgt (ix1 e))) = tgt (ix1 e)
  have hm : IntOp.maxsi (0#32) (tgt (ix1 e)) = tgt (ix1 e) := by
    unfold IntOp.maxsi
    rw [slt_zero_false _ h]
    rfl
  rw [hm]
  unfold Scalar.select IntOp.cmpi
  simp only [slt_zero_false _ h]
  rfl

open Cert.ReferenceIdeal.Read in
/-- The lookup's index word of edge `e` in the reference (wrapped) is the target itself. -/
theorem ref_gidx (tgt : IVec Cert.ReferenceIdeal.S1600000 32) (e : Fin 1600000) (h : 0 ≤ (tgt (ix1 e)).toInt) :
    val_main_v15 (F := Ideal) tgt (ix2 e (0 : Fin 1)) = tgt (ix1 e) := by
  rw [val_main_v15_apply]
  have hi : idx_main_v15 (ix2 e (0 : Fin 1)) = ix1 e := funext fun a => by
    match a with
    | ⟨0, _⟩ => rfl
  rw [hi]
  show Scalar.select (IntOp.cmpi .slt (tgt (ix1 e)) (0#32)) (IntOp.addi (tgt (ix1 e)) (100000#32)) (tgt (ix1 e)) = tgt (ix1 e)
  unfold Scalar.select IntOp.cmpi
  simp only [slt_zero_false _ h]
  rfl

open Cert.ReferenceIdeal.Read in
/-- THE TWO WEIGHTS AGREE at an edge whose target is a node: bin `target e` counts edge `e`, so raising the counts to at
    least 1 changes nothing where the lookup reads. -/
theorem weights_eq (tgt : IVec Cert.KernelIdeal.S1600000 32) (e : Fin 1600000)
    (h0 : 0 ≤ (tgt (ix1 e)).toInt) (h1 : (tgt (ix1 e)).toInt < 100000) :
    Cert.KernelIdeal.HostSide.weights (F := Ideal) tgt (ix1 e) = val_main_v19 (F := Ideal) tgt (ix1 e) := by
  have hg := gather_max_one_counts (N := 100000) (E := 1600000) (by decide) (by decide)
    (Cert.ReferenceIdeal.scatter_S100000_S1600000x1_S1600000_n_0_0_1).wf
    (Cert.ReferenceIdeal.gather_S100000_S1600000x1_S1600000_n_0_n_n_0_1_1).wf
    (val_main_v0 (F := Ideal)) (fun _ => rfl) (val_main_v8 (F := Ideal)) (fun _ => rfl)
    (broadcastInDim Cert.KernelIdeal.S100000 ![] Cert.KernelIdeal.Gen.bcast_S_S100000 (constantI Cert.KernelIdeal.S_ 32 1#32)) (fun _ => rfl)
    (val_main_v7 (F := Ideal) tgt) (val_main_v15 (F := Ideal) tgt) e
    ((ref_sidx tgt e h0).trans (ref_gidx tgt e h0).symm)
    (by rw [ref_gidx tgt e h0]; exact h0) (by rw [ref_gidx tgt e h0]; exact_mod_cast h1)
  show FloatOps.hostDivf (F := Ideal) (φ := .f32) _ (FloatOps.sitofp .f32
      (Host.gather (vecGatherDims 100000 1600000 (Cert.ReferenceIdeal.gather_S100000_S1600000x1_S1600000_n_0_n_n_0_1_1).wf)
        (maxsi (Host.scatter (vecScatterDims 100000 1600000 (Cert.ReferenceIdeal.scatter_S100000_S1600000x1_S1600000_n_0_0_1).wf)
          IntOp.addi (val_main_v0 (F := Ideal)) (val_main_v7 (F := Ideal) tgt) (val_main_v8 (F := Ideal)))
          (broadcastInDim Cert.KernelIdeal.S100000 ![] Cert.KernelIdeal.Gen.bcast_S_S100000 (constantI Cert.KernelIdeal.S_ 32 1#32)))
        (val_main_v15 (F := Ideal) tgt) (ix1 e)))
    = FloatOps.hostDivf (F := Ideal) (φ := .f32) _ (FloatOps.sitofp .f32
      (Host.gather (vecGatherDims 100000 1600000 (Cert.ReferenceIdeal.gather_S100000_S1600000x1_S1600000_n_0_n_n_0_1_1).wf)
        (Host.scatter (vecScatterDims 100000 1600000 (Cert.ReferenceIdeal.scatter_S100000_S1600000x1_S1600000_n_0_0_1).wf)
          IntOp.addi (val_main_v0 (F := Ideal)) (val_main_v7 (F := Ideal) tgt) (val_main_v8 (F := Ideal)))
        (val_main_v15 (F := Ideal) tgt) (ix1 e)))
  rw [hg]
  rfl

open Cert.ReferenceIdeal.Read in
/-- THE TWO RESULTS ARE ONE ARRAY when every target is a node: at `(e, k)` both are the message there times the
    weight of edge `e`. -/
theorem result_eq (tgt : IVec Cert.KernelIdeal.S1600000 32) (msg : Cert.KernelIdeal.S1600000x48.Idx → EReal)
    (hr : ∀ e : Fin 1600000, 0 ≤ (tgt (ix1 e)).toInt ∧ (tgt (ix1 e)).toInt < 100000) :
    shapeCast Cert.KernelIdeal.S1600000x48
        (Cert.KernelIdeal.KValue.G3
          (shapeCast Cert.KernelIdeal.S200000x384 msg Cert.KernelIdeal.Gen.shapeCasts_S1600000x48_S200000x384)
          (shapeCast Cert.KernelIdeal.S200000x8 (Cert.KernelIdeal.HostSide.weights (F := Ideal) tgt)
            Cert.KernelIdeal.Gen.shapeCasts_S1600000_S200000x8))
        Cert.KernelIdeal.Gen.shapeCasts_S200000x384_S1600000x48
      = val_main_v22 (F := Ideal) tgt msg := by
  funext i
  obtain ⟨e, k, rfl⟩ : ∃ (e : Fin 1600000) (k : Fin 48), i = ix2 e k := ⟨i 0, i 1, eq_ix2 i⟩
  rw [Cert.KernelIdeal.Regroup.regroup_apply, val_main_v22_apply, val_main_v21_apply, val_main_v20_apply]
  have hi : idx_main_v20 (idx_main_v21 (ix2 e k)) = ix1 e := funext fun a => by
    match a with
    | ⟨0, _⟩ => rfl
  rw [hi, ← weights_eq tgt e (hr e).1 (hr e).2]
  rfl

end Cert.Bridge

end
-- ==== Proof.PreDecode.lean ====
/-
  The printed precondition `finite_inputs`, read back at one index word.

  The precondition is the conjunction, by `and` on `i1` scalars, of three `jnp.all` reductions: every `|message|` is
  below `+inf`, every target word is at least 0 signed, every target word is below 100000 signed. Each reduction is a
  `stablehlo.reduce` by `and` from the constant 1 of an `i1` array of comparisons against a broadcast constant. When
  the whole conjunction is 1, each conjunct is 1; a reduction by `and` over all axes that is 1 met a 1 at every index;
  and a signed comparison that is 1 is the inequality of the two words read signed. So every target word, read signed,
  lies in `[0, 100000)`.
-/
import proofs.«109882_j89386859364991_2_alg».proof.Pre_finite_inputs
import proofs.«109882_j89386859364991_2_alg».proof.Proof.Gen.Pre_finite_inputs
import Idealize.ShloMosaic.Lib.ReduceAll
import Idealize.ShloMosaic.Lib.Affine
import Idealize.ShloMosaic.Lib.ValueIdx

noncomputable section

namespace Cert.PreDecode

open Idealize.ShloMosaic Idealize.ShloMosaic.ValueIdx

/-- The scalar shape has one index. -/
instance : Subsingleton Cert.Pre_finite_inputs.S_.Idx := ⟨fun a b => funext fun d => d.elim0⟩

/-- THE PRECONDITION DECODED at position `e`: the target word there, read signed, lies in `[0, 100000)`. -/
theorem target_range [hP : Cert.Pre_finite_inputs.Facts] {F : FTy → Type} [FloatOps F]
    (a0 a1 : IVec Cert.Pre_finite_inputs.S1600000 32) (a2 : FVec F Cert.Pre_finite_inputs.S1600000x48 .f32)
    (h : Cert.Pre_finite_inputs.fn (F := F) a0 a1 a2 = fun _ => 1#1) (e : Fin 1600000) :
    0 ≤ (a1 (ix1 e)).toInt ∧ (a1 (ix1 e)).toInt < 100000 := by
  have h0 := congrFun h ValueIdx.ix0
  dsimp only [Cert.Pre_finite_inputs.fn] at h0
  -- the outer `and`: (finite ∧ nonnegative) ∧ below the bound
  obtain ⟨h7, h10⟩ := IntOp.andi_eq_one.mp h0
  obtain ⟨-, h6⟩ := IntOp.andi_eq_one.mp h7
  -- each reduction over all axes that is 1 met a 1 at position `e`
  have hge := Host.reduce_andi_all _ _ _ _ _ h6 (ix1 e)
  have hlt := Host.reduce_andi_all _ _ _ _ _ h10 (ix1 e)
  -- a signed comparison that is 1 is the inequality; the broadcast constant at any index is the constant
  have hge' : (0#32 : BitVec 32).toInt ≤ (a1 (ix1 e)).toInt := IntOp.cmpi_sge.mp hge
  have hlt' : (a1 (ix1 e)).toInt < (100000#32 : BitVec 32).toInt := IntOp.cmpi_slt.mp hlt
  rw [show (0#32 : BitVec 32).toInt = 0 by decide] at hge'
  rw [show (100000#32 : BitVec 32).toInt = 100000 by decide] at hlt'
  exact ⟨hge', hlt'⟩

end Cert.PreDecode

end
-- ==== Proof.lean ====
/-
  The certificate of the inverse in-degree weighting kernel against its jnp reference.

  Both programs multiply every message `message (e, k)` by a weight of its edge.  The reference's weight is
  `1 / count[target e]`, `count` the histogram of the targets over 100000 nodes.  The kernel's program computes
  `1 / max(count, 1)[target e]` on the host, regroups eight edges to a row, and its region multiplies each row of
  `[200000, 384]` messages by the row's eight weights, each copied across its 48 columns by a product with a constant 0/1
  table (on the extended reals `x · 0 = 0` and `x · 1 = x` for every `x`, so the product only copies); the result is regrouped
  back.  The precondition keeps every target a node, `0 ≤ target e < 100000`: then the bin the lookup reads is the bin
  edge `e` itself was counted into, its count is at least 1, and the maximum with 1 changes nothing.  Outside that range
  the reference divides by a zero count where the kernel's program divides by 1.

  The frames of the two kernel programs are the generated frame certificates; the reference's is its generated run.
  The ideal pass rewrote nothing, so `preserves` is trivial.
-/
import proofs.«109882_j89386859364991_2_alg».proof.Defs
import proofs.«109882_j89386859364991_2_alg».proof.Proof.Gen.Kernel
import proofs.«109882_j89386859364991_2_alg».proof.Proof.Gen.Kernel.Skeleton
import proofs.«109882_j89386859364991_2_alg».proof.Proof.Gen.Kernel.Launch
import proofs.«109882_j89386859364991_2_alg».proof.Proof.Gen.Kernel.Points
import proofs.«109882_j89386859364991_2_alg».proof.Proof.Gen.Kernel.Frame
import proofs.«109882_j89386859364991_2_alg».proof.Proof.Gen.KernelIdeal
import proofs.«109882_j89386859364991_2_alg».proof.Proof.Gen.KernelIdeal.Skeleton
import proofs.«109882_j89386859364991_2_alg».proof.Proof.Gen.KernelIdeal.Launch
import proofs.«109882_j89386859364991_2_alg».proof.Proof.Gen.KernelIdeal.Points
import proofs.«109882_j89386859364991_2_alg».proof.Proof.Gen.KernelIdeal.Frame
import proofs.«109882_j89386859364991_2_alg».proof.Proof.Gen.ReferenceIdeal
import proofs.«109882_j89386859364991_2_alg».proof.Proof.Gen.ReferenceIdeal.Run
import proofs.«109882_j89386859364991_2_alg».proof.Proof.Gen.ReferenceIdeal.Read
import proofs.«109882_j89386859364991_2_alg».proof.Proof.Gen.Pre_finite_inputs
import proofs.«109882_j89386859364991_2_alg».proof.Proof.KernelValue
import proofs.«109882_j89386859364991_2_alg».proof.Proof.Bridge
import proofs.«109882_j89386859364991_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, under the precondition, both programs end at the reference's product
    `message · (1 / count[target])` of the kernel side's arguments: the kernel's program by its run read as values and
    the agreement of the two weights where every target is a node, the reference by its run. -/
theorem algebraic : Cert.algebraic_KernelIdeal_ReferenceIdeal := by
  intro m ρ m' ρ' hpre hagree
  refine ⟨fun c => Cert.ReferenceIdeal.Read.val_main_v22 (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.KValue.run m ρ)
    exact Cert.Bridge.result_eq _ _ (fun e => Cert.PreDecode.target_range _ _ _ (hpre c) e)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v22_eq, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
